-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S4000000x9 : Shape := ⟨2, ![4000000, 9]⟩
abbrev S1600x4 : Shape := ⟨2, ![1600, 4]⟩
abbrev S1600x3 : Shape := ⟨2, ![1600, 3]⟩
abbrev S1600x9 : Shape := ⟨2, ![1600, 9]⟩
abbrev S1600 : Shape := ⟨1, ![1600]⟩
abbrev S1600x1 : Shape := ⟨2, ![1600, 1]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x9, .f32⟩
  | .hbm, ⟨3, _⟩ => ⟨S4000000x3x3, .f32⟩
  | .local _ .vmem, ⟨0, _⟩ => ⟨S1600x4, .f32⟩
  | .local _ .vmem, ⟨1, _⟩ => ⟨S1600x4, .f32⟩
  | .local _ .vmem, ⟨2, _⟩ => ⟨S1600x3, .f32⟩
  | .local _ .vmem, ⟨3, _⟩ => ⟨S1600x3, .f32⟩
  | .local _ .vmem, ⟨4, _⟩ => ⟨S1600x9, .f32⟩
  | .local _ .vmem, ⟨5, _⟩ => ⟨S1600x9, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1600x4_S1600x4_0_0 : ∀ a, (![0, 0] : Fin 2 → Nat) a + S1600x4.size a ≤ S1600x4.size a
  h_S1600x4 : 0 < S1600x4.numel
  reduces_S1600x4_S1600 : S1600x4.Reduces [1] S1600
  shapeCasts_S1600_S1600x1 : S1600.ShapeCasts S1600x1
  broadcasts_S1600x1_S1600x4 : S1600x1.Broadcasts S1600x4
  slices_S1600x4_o0_0_S1600x1 : S1600x4.Slices ![0, 0] S1600x1
  slices_S1600x4_o0_1_S1600x1 : S1600x4.Slices ![0, 1] S1600x1
  slices_S1600x4_o0_2_S1600x1 : S1600x4.Slices ![0, 2] S1600x1
  slices_S1600x4_o0_3_S1600x1 : S1600x4.Slices ![0, 3] S1600x1
  inb_S1600x3_S1600x3_0_0 : ∀ a, (![0, 0] : Fin 2 → Nat) a + S1600x3.size a ≤ S1600x3.size a
  h_S1600x3 : 0 < S1600x3.numel
  slices_S1600x3_o0_0_S1600x1 : S1600x3.Slices ![0, 0] S1600x1
  slices_S1600x3_o0_1_S1600x1 : S1600x3.Slices ![0, 1] S1600x1
  slices_S1600x3_o0_2_S1600x1 : S1600x3.Slices ![0, 2] S1600x1
  concatenates_S1600x1_S1600x1_S1600x1_S1600x1_S1600x1_S1600x1_S1600x1_S1600x1_S1600x1_S1600x9_d1 : Shape.Concatenates [S1600x1, S1600x1, S1600x1, S1600x1, S1600x1, S1600x1, S1600x1, S1600x1, S1600x1] S1600x9 1
  inb_S1600x9_S1600x9_0_0 : ∀ a, (![0, 0] : Fin 2 → Nat) a + S1600x9.size a ≤ S1600x9.size a
  h_S1600x9 : 0 < S1600x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x4.size a ≤ S4000000x4.size a
  hwx0_0 : ∀ i : grid0.Coords, EltTy.bits .f32 = 32 ∨ (Rect.block (s := S4000000x4) S1600x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x3.size a ≤ S4000000x3.size a
  hwx0_1 : ∀ i : grid0.Coords, EltTy.bits .f32 = 32 ∨ (Rect.block (s := S4000000x3) S1600x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x9.size a ≤ S4000000x9.size a
  hwx0_2 : ∀ i : grid0.Coords, EltTy.bits .f32 = 32 ∨ (Rect.block (s := S4000000x9) S1600x9.size (cc0_transform_2 i) (hinb0_2 i)).WholeWords (EltTy.packing .f32)

variable [Facts₀]

abbrev win0_0 : Pipeline.Window sig grid0 :=
  Pipeline.Window.ofSpec (Memref.whole main_arg0) S1600x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1600x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1600x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩

abbrev nBuf : Space → Nat
  | .hbm => 100
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S_, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x3, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x3, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x3, .f32⟩
  | .hbm, ⟨92, _⟩ => ⟨S4000000x1x3, .f32⟩
  | .hbm, ⟨93, _⟩ => ⟨S4000000x1x3, .f32⟩
  | .hbm, ⟨94, _⟩ => ⟨S4000000x1x3, .f32⟩
  | .hbm, ⟨95, _⟩ => ⟨S4000000x3x3, .f32⟩
  | .hbm, ⟨96, _⟩ => ⟨S4000000x1x3, .f32⟩
  | .hbm, ⟨97, _⟩ => ⟨S4000000x3x3, .f32⟩
  | .hbm, ⟨98, _⟩ => ⟨S4000000x3x3, .f32⟩
  | .hbm, ⟨99, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The covariance of a scaled rotation, entry by entry, on the extended reals.

  A row (w, x, y, z) of the first argument is a quaternion. Its rotation matrix R has the nine entries
  1 - 2(y² + z²), 2(xy - wz), 2(xz + wy), … below; M = R · diag(s) scales column j by the row's s_j; the result is
  M · Mᵀ, entry (i, k) being M_i0 M_k0 + M_i1 M_k1 + M_i2 M_k2. Both programs first normalise the quaternion: one
  multiplies by the reciprocal square root of the sum of squares, the other divides by the square root of that sum.
  On the extended reals the two normalisations agree wherever the sum of squares is positive (`normMul_eq_normDiv`),
  and M · Mᵀ is symmetric because the product commutes (`cov_symm`).
-/
import Idealize.ShloMosaic.PureOps.Ideal
import Idealize.ShloMosaic.Lib.ValueIdx
import Idealize.ShloMosaic.PureOps.Ideal.Laws

noncomputable section

open scoped BigOperators

namespace Cert.QuatCov

open Idealize.ShloMosaic Idealize.ShloMosaic.ValueIdx

/-- The literal 2.0. -/
abbrev two : EReal := Ideal.ofBits .f32 0x40000000#32
/-- The literal 1.0. -/
abbrev one : EReal := Ideal.ofBits .f32 0x3F800000#32

/-- Entry (i, j) of the rotation matrix of the quaternion (w, x, y, z). -/
def rot (w x y z : EReal) (i j : Fin 3) : EReal :=
  ![![one - two * (y * y + z * z), two * (x * y - w * z), two * (x * z + w * y)],
    ![two * (x * y + w * z), one - two * (x * x + z * z), two * (y * z - w * x)],
    ![two * (x * z - w * y), two * (y * z + w * x), one - two * (x * x + y * y)]] i j

/-- The rotation with column j scaled by s_j. -/
def scaled (q : Fin 4 → EReal) (s : Fin 3 → EReal) (i j : Fin 3) : EReal :=
  rot (q 0) (q 1) (q 2) (q 3) i j * s j

/-- Entry (i, k) of M · Mᵀ. -/
def cov (q : Fin 4 → EReal) (s : Fin 3 → EReal) (i k : Fin 3) : EReal :=
  scaled q s i 0 * scaled q s k 0 + scaled q s i 1 * scaled q s k 1 + scaled q s i 2 * scaled q s k 2

/-- M · Mᵀ is symmetric. -/
theorem cov_symm (q : Fin 4 → EReal) (s : Fin 3 → EReal) (i k : Fin 3) : cov q s i k = cov q s k i := by
  unfold cov
  rw [mul_comm (scaled q s i 0), mul_comm (scaled q s i 1), mul_comm (scaled q s i 2)]

/-- The quaternion times the reciprocal square root of its sum of squares. -/
def normMul (q : Fin 4 → EReal) : Fin 4 → EReal := fun k => q k * Ideal.rsqrt (∑ k' : Fin 4, q k' * q k')

/-- The quaternion divided by the square root of its sum of squares, the sum started from the zero word. -/
def normDiv (q : Fin 4 → EReal) : Fin 4 → EReal := fun k =>
  Ideal.div (q k) (Ideal.sqrt (Ideal.ofBits .f32 0x00000000#32 + ∑ k' : Fin 4, q k' * q k'))

/-- For a positive extended real t, multiplying by 1/√t is dividing by √t: at t = ⊤ both give x · 0, and at a
    positive real √t is a nonzero real whose inverse is the reciprocal. -/
theorem mul_rsqrt_eq_div_sqrt (x t : EReal) (ht : 0 < t) : x * Ideal.rsqrt t = Ideal.div x (Ideal.sqrt t) := by
  induction t using EReal.rec with
  | bot => exact absurd ht (by simp)
  | top =>
    rw [Ideal.rsqrt_top, Ideal.sqrt_top, Ideal.div, if_neg (by simp), EReal.inv_top]
  | coe r =>
    have hr : 0 < r := by exact_mod_cast ht
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

/-- The two normalisations agree on a quaternion whose sum of squares is positive. -/
theorem normMul_eq_normDiv (q : Fin 4 → EReal) (h : 0 < ∑ k' : Fin 4, q k' * q k') : normMul q = normDiv q := by
  funext k
  unfold normMul normDiv
  rw [Ideal.ofBits_zero_f32, zero_add]
  exact mul_rsqrt_eq_div_sqrt _ _ h

/-- Row n of a [4000000, 4] array. -/
def rowQ (a : (⟨2, ![4000000, 4]⟩ : Shape).Idx → EReal) (n : Fin 4000000) : Fin 4 → EReal := fun k => a (ix2 n k)
/-- Row n of a [4000000, 3] array. -/
def rowS (a : (⟨2, ![4000000, 3]⟩ : Shape).Idx → EReal) (n : Fin 4000000) : Fin 3 → EReal := fun j => a (ix2 n j)

/-- The result as a [4000000, 3, 3] array, for a given normalisation: entry (n, i, k) is entry (i, k) of the
    covariance of row n. -/
def result (nrm : (Fin 4 → EReal) → Fin 4 → EReal) (a0 : (⟨2, ![4000000, 4]⟩ : Shape).Idx → EReal)
    (a1 : (⟨2, ![4000000, 3]⟩ : Shape).Idx → EReal) : (⟨3, ![4000000, 3, 3]⟩ : Shape).Idx → EReal := fun j =>
  cov (nrm (rowQ a0 (j 0))) (rowS a1 (j 0)) (j 1) (j 2)

/-- The row and the column of the 3 × 3 matrix that flat position c = 3 i + k holds. -/
def rowOf : Fin 9 → Fin 3 := ![0, 0, 0, 1, 1, 1, 2, 2, 2]
def colOf : Fin 9 → Fin 3 := ![0, 1, 2, 0, 1, 2, 0, 1, 2]

theorem rowOf_flat (i k : Fin 3) (h : 3 * i.val + k.val < 9) : rowOf ⟨3 * i.val + k.val, h⟩ = i := by
  match i, k with
  | ⟨0, _⟩, ⟨0, _⟩ => rfl | ⟨0, _⟩, ⟨1, _⟩ => rfl | ⟨0, _⟩, ⟨2, _⟩ => rfl
  | ⟨1, _⟩, ⟨0, _⟩ => rfl | ⟨1, _⟩, ⟨1, _⟩ => rfl | ⟨1, _⟩, ⟨2, _⟩ => rfl
  | ⟨2, _⟩, ⟨0, _⟩ => rfl | ⟨2, _⟩, ⟨1, _⟩ => rfl | ⟨2, _⟩, ⟨2, _⟩ => rfl
theorem colOf_flat (i k : Fin 3) (h : 3 * i.val + k.val < 9) : colOf ⟨3 * i.val + k.val, h⟩ = k := by
  match i, k with
  | ⟨0, _⟩, ⟨0, _⟩ => rfl | ⟨0, _⟩, ⟨1, _⟩ => rfl | ⟨0, _⟩, ⟨2, _⟩ => rfl
  | ⟨1, _⟩, ⟨0, _⟩ => rfl | ⟨1, _⟩, ⟨1, _⟩ => rfl | ⟨1, _⟩, ⟨2, _⟩ => rfl
  | ⟨2, _⟩, ⟨0, _⟩ => rfl | ⟨2, _⟩, ⟨1, _⟩ => rfl | ⟨2, _⟩, ⟨2, _⟩ => rfl

/-- The same laid out flat, nine entries to a row: column c holds entry (rowOf c, colOf c). -/
def flat (nrm : (Fin 4 → EReal) → Fin 4 → EReal) (a0 : (⟨2, ![4000000, 4]⟩ : Shape).Idx → EReal)
    (a1 : (⟨2, ![4000000, 3]⟩ : Shape).Idx → EReal) : (⟨2, ![4000000, 9]⟩ : Shape).Idx → EReal := fun j =>
  cov (nrm (rowQ a0 (j 0))) (rowS a1 (j 0)) (rowOf (j 1)) (colOf (j 1))

/-- Where every row's sum of squares is positive, the result is the same under either normalisation. -/
theorem result_normMul_eq_normDiv (a0 : (⟨2, ![4000000, 4]⟩ : Shape).Idx → EReal) (a1 : (⟨2, ![4000000, 3]⟩ : Shape).Idx → EReal)
    (h : ∀ n : Fin 4000000, 0 < ∑ k' : Fin 4, a0 (ix2 n k') * a0 (ix2 n k')) :
    result normMul a0 a1 = result normDiv a0 a1 := by
  funext j
  exact congrArg (fun f => cov f (rowS a1 (j 0)) (j 1) (j 2)) (normMul_eq_normDiv (rowQ a0 (j 0)) (h (j 0)))

end Cert.QuatCov

end
-- ==== Proof.Domain.lean ====
/-
  What the precondition says about the quaternions: it holds exactly when every input is finite and every row of the
  first argument has a positive sum of squares. Only the last part is used: read at row n it says
  0 < 0 + Σ_k a0[n, k]², the comparison and the row sum taken on the extended reals.
-/
import proofs.«139577_j53231824666916_2_alg».proof.Pre_finite_inputs
import proofs.«139577_j53231824666916_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

open scoped BigOperators

namespace Cert.Pre_finite_inputs.Domain

open Cert.Pre_finite_inputs Cert.Pre_finite_inputs.Gen Idealize.ShloMosaic Idealize.ShloMosaic.ValueIdx

instance : Subsingleton S_.Idx := ⟨fun a b => funext fun d => d.elim0⟩

/-- The host's sum over the four lanes at row n: the initial value plus the row's four entries. -/
theorem rowSum_apply (y : FVec Ideal S4000000x4 .f32) (init : FVec Ideal S_ .f32) (n : Fin 4000000) :
    Host.reduceAdd y init reducesTo_S4000000x4_S4000000_d1 h_S_ (ix1 n)
      = init (Shape.Idx.first h_S_) + ∑ k : Fin 4, y (ix2 n k) := by
  simp only [Host.reduceAdd, Ideal.hostReduceAdd_def]
  rw [Ideal.hostReduceAdd_single reducesTo_S4000000x4_S4000000_d1 (by decide)]
  refine congrArg (_ + ·) (Finset.sum_congr rfl fun k _ => ?_)
  exact congrArg y (funext fun a => Fin.ext (by
    match a with
    | ⟨0, _⟩ => rfl
    | ⟨1, _⟩ => rfl))

/-- If "u > v" holds at every row (the conjunction over the rows is 1), then v < u at row n. -/
theorem lt_of_all_gt (u v : FVec Ideal S4000000 .f32) (init : IVec S_ 1)
    (h : Host.reduce IntOp.andi (cmpf .ogt u v) init reducesTo_S4000000_S_d0 h_S_ ix0 = 1#1) (n : Fin 4000000) :
    v (ix1 n) < u (ix1 n) := by
  have hn : Ideal.cmp .ogt (u (ix1 n)) (v (ix1 n)) = 1#1 := Host.reduce_andi_all _ _ _ _ ix0 h (ix1 n)
  by_contra hlt
  unfold Ideal.cmp at hn
  simp only [decide_eq_false hlt] at hn
  exact absurd hn (by decide)

/-- Under the precondition every row of the first argument has a positive sum of squares. -/
theorem rows_positive (a0 : FVec Ideal S4000000x4 .f32) (a1 : FVec Ideal S4000000x3 .f32)
    (h : fn (F := Ideal) a0 a1 = fun _ => 1#1) (n : Fin 4000000) :
    0 < ∑ k : Fin 4, a0 (ix2 n k) * a0 (ix2 n k) := by
  have e := congrFun h ix0
  dsimp only [fn] at e
  have hlt := lt_of_all_gt _ _ _ (IntOp.andi_eq_one.mp e).2 n
  rw [rowSum_apply] at hlt
  have hb : broadcastInDim S4000000 ![] bcast_S_S4000000 (constant (F := Ideal) S_ .f32 0x00000000#32) (ix1 n) = 0 :=
    Ideal.ofBits_zero_f32
  have hz : constant (F := Ideal) S_ .f32 0x00000000#32 (Shape.Idx.first h_S_) = 0 := Ideal.ofBits_zero_f32
  rw [hb, hz, zero_add] at hlt
  exact hlt

end Cert.Pre_finite_inputs.Domain

end
-- ==== Proof.LibConcatUnit.lean ====
/-
  A concatenation of pieces whose extent along the joined axis is one, read at an index given by coordinates:
  the piece the coordinate on the joined axis names, read at the same remaining coordinates.
  Two layouts: columns [R, 1] joined into [R, N], and slabs [R, 1, C] joined along the middle axis into [R, N, C].
-/
import Idealize.ShloMosaic.Lib.Pipeline.Value
import Idealize.ShloMosaic.Lib.ValueIdx

noncomputable section

namespace Idealize.ShloMosaic.ConcatUnit

open Idealize.ShloMosaic Idealize.ShloMosaic.ValueIdx

variable {α : Type}

/-- N columns of shape [R, 1] joined along axis 1: entry (r, n) of the result is entry (r, 0) of column n. -/
theorem concatenate_cols_apply {R N : Nat} (f : Fin N → ((⟨2, ![R, 1]⟩ : Shape).Idx → α))
    (xs : List ((s : Shape) × (s.Idx → α)))
    (hxs : xs = List.ofFn fun n : Fin N => (⟨⟨2, ![R, 1]⟩, f n⟩ : (s : Shape) × (s.Idx → α)))
    (h : Shape.Concatenates (xs.map (·.1)) ⟨2, ![R, N]⟩ 1) (r : Fin R) (n : Fin N) :
    concatenate ⟨2, ![R, N]⟩ 1 xs h (ix2 r n) = f n (ix2 r 0) := by
  subst hxs
  exact concatenate_ofFn_unit_apply (t := ⟨2, ![R, N]⟩) (s₁ := ⟨2, ![R, 1]⟩) 1 f h rfl rfl (ix2 r n) n rfl (ix2 r 0)
    (fun b hb => by match b with | ⟨0, _⟩ => rfl | ⟨1, _⟩ => exact absurd rfl hb)

/-- N slabs of shape [R, 1, C] joined along axis 1: entry (r, n, c) of the result is entry (r, 0, c) of slab n. -/
theorem concatenate_mid_apply {R N C : Nat} (f : Fin N → ((⟨3, ![R, 1, C]⟩ : Shape).Idx → α))
    (xs : List ((s : Shape) × (s.Idx → α)))
    (hxs : xs = List.ofFn fun n : Fin N => (⟨⟨3, ![R, 1, C]⟩, f n⟩ : (s : Shape) × (s.Idx → α)))
    (h : Shape.Concatenates (xs.map (·.1)) ⟨3, ![R, N, C]⟩ 1) (r : Fin R) (n : Fin N) (c : Fin C) :
    concatenate ⟨3, ![R, N, C]⟩ 1 xs h (ix3 r n c) = f n (ix3 r 0 c) := by
  subst hxs
  exact concatenate_ofFn_unit_apply (t := ⟨3, ![R, N, C]⟩) (s₁ := ⟨3, ![R, 1, C]⟩) 1 f h rfl rfl (ix3 r n c) n rfl (ix3 r 0 c)
    (fun b hb => by match b with | ⟨0, _⟩ => rfl | ⟨1, _⟩ => exact absurd rfl hb | ⟨2, _⟩ => rfl)

/-- Three columns joined: entry (r, j) is entry (r, 0) of column j, the column chosen by cases on j. -/
theorem cols3_apply {R : Nat} (a b c : (⟨2, ![R, 1]⟩ : Shape).Idx → α)
    (h : Shape.Concatenates [(⟨2, ![R, 1]⟩ : Shape), ⟨2, ![R, 1]⟩, ⟨2, ![R, 1]⟩] ⟨2, ![R, 3]⟩ 1) (r : Fin R) (j : Fin 3) :
    concatenate ⟨2, ![R, 3]⟩ 1 [⟨⟨2, ![R, 1]⟩, a⟩, ⟨⟨2, ![R, 1]⟩, b⟩, ⟨⟨2, ![R, 1]⟩, c⟩] h (ix2 r j)
      = (match j with | ⟨0, _⟩ => a | ⟨1, _⟩ => b | ⟨2, _⟩ => c) (ix2 r 0) := by
  refine (concatenate_cols_apply ![a, b, c] _ rfl h r j).trans ?_
  match j with
  | ⟨0, _⟩ => rfl
  | ⟨1, _⟩ => rfl
  | ⟨2, _⟩ => rfl

/-- Three slabs joined along the middle axis: entry (r, i, c) is entry (r, 0, c) of slab i, chosen by cases on i. -/
theorem slabs3_apply {R C : Nat} (a b c : (⟨3, ![R, 1, C]⟩ : Shape).Idx → α)
    (h : Shape.Concatenates [(⟨3, ![R, 1, C]⟩ : Shape), ⟨3, ![R, 1, C]⟩, ⟨3, ![R, 1, C]⟩] ⟨3, ![R, 3, C]⟩ 1)
    (r : Fin R) (i : Fin 3) (k : Fin C) :
    concatenate ⟨3, ![R, 3, C]⟩ 1 [⟨⟨3, ![R, 1, C]⟩, a⟩, ⟨⟨3, ![R, 1, C]⟩, b⟩, ⟨⟨3, ![R, 1, C]⟩, c⟩] h (ix3 r i k)
      = (match i with | ⟨0, _⟩ => a | ⟨1, _⟩ => b | ⟨2, _⟩ => c) (ix3 r 0 k) := by
  refine (concatenate_mid_apply ![a, b, c] _ rfl h r i k).trans ?_
  match i with
  | ⟨0, _⟩ => rfl
  | ⟨1, _⟩ => rfl
  | ⟨2, _⟩ => rfl

end Idealize.ShloMosaic.ConcatUnit

end
-- ==== Proof.KerBody.lean ====
/-
  What the kernel body leaves in its output block, read entry by entry: row p, column c of the [1600, 9] block is
  entry (c / 3, c % 3) of M · Mᵀ for row p of the two input blocks, the quaternion normalised by multiplying with the
  reciprocal square root of its sum of squares.

  In order: the layout operations of the body read at an index (a lane sum, a column reshaped and broadcast back over
  the four lanes, a one-column slice); the normalised quaternion; the nine scaled rotation entries as columns; the
  six distinct covariance columns; the nine-column concatenation.
-/
import proofs.«139577_j53231824666916_2_alg».proof.Proof.Gen.KernelIdeal.Frame
import proofs.«139577_j53231824666916_2_alg».proof.Proof.Spec
import proofs.«139577_j53231824666916_2_alg».proof.Proof.LibConcatUnit
import Idealize.ShloMosaic.Lib.Pipeline.Value
import Idealize.ShloMosaic.Lib.ValueIdx
import Idealize.ShloMosaic.PureOps.Ideal.Laws

noncomputable section

open scoped BigOperators

namespace Cert.KernelIdeal.KerBody

open Cert.KernelIdeal Cert.KernelIdeal.Gen Idealize.ShloMosaic Idealize.ShloMosaic.TcCoe
open Idealize.ShloMosaic.ValueIdx Idealize.ShloMosaic.ConcatUnit Cert.QuatCov

/-! ## The layout operations at an index -/

/-- The lane sum of a [1600, 4] vector at row p is the sum of the row's four entries. -/
theorem laneSum_apply (v : FVec Ideal S1600x4 .f32) (hacc : (0x00000000#32 : BitVec 32) = 0x00000000#32) (p : Fin 1600) :
    multiReduction .add [1] S1600 v 0x00000000#32 reduces_S1600x4_S1600 (.inl rfl) hacc (ix1 p) = ∑ k : Fin 4, v (ix2 p k) := by
  refine (Ideal.multiReduction_add_single v 0x00000000#32 reduces_S1600x4_S1600 (.inl rfl) hacc (ix1 p)).trans ?_
  exact Finset.sum_congr rfl fun k _ => congrArg v (funext fun a => Fin.ext (by
    match a with
    | ⟨0, _⟩ => rfl
    | ⟨1, _⟩ => rfl))

/-- A flat [1600] vector reshaped to a column: entry (p, 0) is entry p. -/
theorem column_apply (v : FVec Ideal S1600 .f32) (p : Fin 1600) :
    shapeCast S1600x1 v shapeCasts_S1600_S1600x1 (ix2 p 0) = v (ix1 p) :=
  shapeCast_apply v shapeCasts_S1600_S1600x1 (ix2 p 0) (ix1 p) (by
    rw [Shape.rowMajor_val_one, Shape.rowMajor_val_two]; show p.val = p.val * 1 + 0; omega)

/-- A column broadcast over the four lanes: entry (p, k) is the column's entry (p, 0). -/
theorem lanes_apply (v : FVec Ideal S1600x1 .f32) (p : Fin 1600) (k : Fin 4) :
    broadcastTo S1600x4 v broadcasts_S1600x1_S1600x4 (ix2 p k) = v (ix2 p 0) :=
  broadcastTo_apply v broadcasts_S1600x1_S1600x4 (ix2 p k) (ix2 p 0) (fun a => by
    match a with
    | ⟨0, _⟩ => show p.val = if (1600 : Nat) = 1 then 0 else p.val; rw [if_neg (by decide)]
    | ⟨1, _⟩ => show (0 : Nat) = if (1 : Nat) = 1 then 0 else _; rw [if_pos rfl])

/-- Column c of a [1600, 4] vector, sliced out as a [1600, 1] column. -/
theorem slice4_apply (v : FVec Ideal S1600x4 .f32) (off : Fin 2 → Nat) (h : S1600x4.Slices off S1600x1) (c : Fin 4)
    (h0 : off 0 = 0) (h1 : off 1 = c.val) (p : Fin 1600) :
    extractStridedSlice S1600x1 off v h (ix2 p 0) = v (ix2 p c) :=
  extractStridedSlice_apply off v h (ix2 p 0) (ix2 p c) (fun a => by
    match a with
    | ⟨0, _⟩ => show p.val = off 0 + p.val; omega
    | ⟨1, _⟩ => show c.val = off 1 + 0; omega)

/-- Column c of a [1600, 3] vector, sliced out as a [1600, 1] column. -/
theorem slice3_apply (v : FVec Ideal S1600x3 .f32) (off : Fin 2 → Nat) (h : S1600x3.Slices off S1600x1) (c : Fin 3)
    (h0 : off 0 = 0) (h1 : off 1 = c.val) (p : Fin 1600) :
    extractStridedSlice S1600x1 off v h (ix2 p 0) = v (ix2 p c) :=
  extractStridedSlice_apply off v h (ix2 p 0) (ix2 p c) (fun a => by
    match a with
    | ⟨0, _⟩ => show p.val = off 0 + p.val; omega
    | ⟨1, _⟩ => show c.val = off 1 + 0; omega)

/-! ## The normalised quaternion -/

variable (x0 : Vec Ideal S1600x4 .f32) (x1 : Vec Ideal S1600x3 .f32)

/-- Row p of the quaternion block. -/
abbrev q (p : Fin 1600) : Fin 4 → EReal := fun k => x0 (ix2 p k)
/-- Row p of the scale block. -/
abbrev s (p : Fin 1600) : Fin 3 → EReal := fun j => x1 (ix2 p j)

/-- The body's normalised quaternion at (p, k): the entry times the reciprocal square root of the row's sum of squares. -/
theorem qn_apply (p : Fin 1600) (k : Fin 4) : k0_pay2 x0 (ix2 p k) = normMul (q x0 p) k := by
  unfold k0_pay2
  show x0 (ix2 p k) * _ = x0 (ix2 p k) * Ideal.rsqrt (∑ k' : Fin 4, x0 (ix2 p k') * x0 (ix2 p k'))
  refine congrArg (x0 (ix2 p k) * ·) ((lanes_apply _ p k).trans ?_)
  show Ideal.rsqrt _ = _
  exact congrArg Ideal.rsqrt ((column_apply _ p).trans (laneSum_apply _ _ p))

/-- Its four components as columns. -/
theorem quat_cols (p : Fin 1600) :
    (![k0_pay3 x0 (ix2 p 0), k0_pay4 x0 (ix2 p 0), k0_pay5 x0 (ix2 p 0), k0_pay6 x0 (ix2 p 0)] : Fin 4 → EReal) = normMul (q x0 p) := by
  funext k
  match k with
  | ⟨0, _⟩ => exact (slice4_apply (k0_pay2 x0) ![0, 0] slices_S1600x4_o0_0_S1600x1 0 rfl rfl p).trans (qn_apply x0 p 0)
  | ⟨1, _⟩ => exact (slice4_apply (k0_pay2 x0) ![0, 1] slices_S1600x4_o0_1_S1600x1 1 rfl rfl p).trans (qn_apply x0 p 1)
  | ⟨2, _⟩ => exact (slice4_apply (k0_pay2 x0) ![0, 2] slices_S1600x4_o0_2_S1600x1 2 rfl rfl p).trans (qn_apply x0 p 2)
  | ⟨3, _⟩ => exact (slice4_apply (k0_pay2 x0) ![0, 3] slices_S1600x4_o0_3_S1600x1 3 rfl rfl p).trans (qn_apply x0 p 3)

/-- The three scales as columns. -/
theorem scale_cols (p : Fin 1600) :
    (![k0_pay14 x1 (ix2 p 0), k0_pay15 x1 (ix2 p 0), k0_pay16 x1 (ix2 p 0)] : Fin 3 → EReal) = s x1 p := by
  funext j
  match j with
  | ⟨0, _⟩ => exact slice3_apply x1 ![0, 0] slices_S1600x3_o0_0_S1600x1 0 rfl rfl p
  | ⟨1, _⟩ => exact slice3_apply x1 ![0, 1] slices_S1600x3_o0_1_S1600x1 1 rfl rfl p
  | ⟨2, _⟩ => exact slice3_apply x1 ![0, 2] slices_S1600x3_o0_2_S1600x1 2 rfl rfl p

/-! ## The covariance columns -/

/-- Row p's quaternion and scale columns as the body holds them. -/
abbrev Qc (p : Fin 1600) : Fin 4 → EReal :=
  ![k0_pay3 x0 (ix2 p 0), k0_pay4 x0 (ix2 p 0), k0_pay5 x0 (ix2 p 0), k0_pay6 x0 (ix2 p 0)]
abbrev Sc (p : Fin 1600) : Fin 3 → EReal := ![k0_pay14 x1 (ix2 p 0), k0_pay15 x1 (ix2 p 0), k0_pay16 x1 (ix2 p 0)]

/-! The six distinct columns: each is its entry of M · Mᵀ, the products and sums taken in the same order. -/
theorem c00 (p : Fin 1600) :
    k0_pay26 (k0_pay7 x0) (k0_pay8 x0) (k0_pay9 x0) x1 (ix2 p 0) = cov (Qc x0 p) (Sc x1 p) 0 0 := rfl
theorem c01 (p : Fin 1600) :
    k0_pay27 (k0_pay7 x0) (k0_pay8 x0) (k0_pay9 x0) (k0_pay10 x0) (k0_pay11 x0) (k0_pay12 x0) x1 (ix2 p 0)
      = cov (Qc x0 p) (Sc x1 p) 0 1 := rfl
theorem c02 (p : Fin 1600) :
    k0_pay28 (k0_pay3 x0) (k0_pay4 x0) (k0_pay5 x0) (k0_pay6 x0) (k0_pay7 x0) (k0_pay8 x0) (k0_pay9 x0) (k0_pay13 x0) x1 (ix2 p 0)
      = cov (Qc x0 p) (Sc x1 p) 0 2 := rfl
theorem c11 (p : Fin 1600) :
    k0_pay29 (k0_pay10 x0) (k0_pay11 x0) (k0_pay12 x0) x1 (ix2 p 0) = cov (Qc x0 p) (Sc x1 p) 1 1 := rfl
theorem c12 (p : Fin 1600) :
    k0_pay30 (k0_pay3 x0) (k0_pay4 x0) (k0_pay5 x0) (k0_pay6 x0) (k0_pay10 x0) (k0_pay11 x0) (k0_pay12 x0) (k0_pay13 x0) x1 (ix2 p 0)
      = cov (Qc x0 p) (Sc x1 p) 1 2 := rfl
theorem c22 (p : Fin 1600) :
    addf (addf (k0_pay31 (k0_pay13 x0) x1) (k0_pay32 (k0_pay3 x0) (k0_pay4 x0) (k0_pay5 x0) (k0_pay6 x0) x1))
        (mulf (k0_pay25 (k0_pay4 x0) (k0_pay5 x0) x1) (k0_pay25 (k0_pay4 x0) (k0_pay5 x0) x1)) (ix2 p 0)
      = cov (Qc x0 p) (Sc x1 p) 2 2 := rfl

theorem hz : (![0, 0] : Fin 2 → Nat) = fun _ => 0 := funext fun a => by fin_cases a <;> rfl

/-- Nine columns joined into a [1600, 9] vector: entry (p, c) is entry (p, 0) of column c. -/
theorem nineCols_apply (v0 v1 v2 v3 v4 v5 v6 v7 v8 : FVec Ideal S1600x1 .f32) (p : Fin 1600) (c : Fin 9) :
    concatenate S1600x9 1 [⟨S1600x1, v0⟩, ⟨S1600x1, v1⟩, ⟨S1600x1, v2⟩, ⟨S1600x1, v3⟩, ⟨S1600x1, v4⟩, ⟨S1600x1, v5⟩, ⟨S1600x1, v6⟩, ⟨S1600x1, v7⟩, ⟨S1600x1, v8⟩]
        concatenates_S1600x1_S1600x1_S1600x1_S1600x1_S1600x1_S1600x1_S1600x1_S1600x1_S1600x1_S1600x9_d1 (ix2 p c)
      = (![v0, v1, v2, v3, v4, v5, v6, v7, v8] : Fin 9 → FVec Ideal S1600x1 .f32) c (ix2 p 0) :=
  concatenate_cols_apply (R := 1600) (N := 9) ![v0, v1, v2, v3, v4, v5, v6, v7, v8] _ rfl _ p c

/-- The block after the body, over the columns as the body holds them: the nine columns in row-major order of
    (i, k), the three below the diagonal being the stored columns of their mirror entries. -/
theorem block_cols (p : Fin 1600) (c : Fin 9) :
    out0_2 x0 x1 (ix2 p c) = cov (Qc x0 p) (Sc x1 p) (rowOf c) (colOf c) := by
  unfold out0_2
  rw [View.canon_unit_zero hz]
  simp only [View.ld_unit_zero (S := S1600x4) hz, View.ld_unit_zero (S := S1600x3) hz]
  unfold k0_pay1
  refine (nineCols_apply _ _ _ _ _ _ _ _ _ p c).trans ?_
  match c with
  | ⟨0, _⟩ => exact c00 x0 x1 p
  | ⟨1, _⟩ => exact c01 x0 x1 p
  | ⟨2, _⟩ => exact c02 x0 x1 p
  | ⟨3, _⟩ => exact (c01 x0 x1 p).trans (cov_symm _ _ 0 1)
  | ⟨4, _⟩ => exact c11 x0 x1 p
  | ⟨5, _⟩ => exact c12 x0 x1 p
  | ⟨6, _⟩ => exact (c02 x0 x1 p).trans (cov_symm _ _ 0 2)
  | ⟨7, _⟩ => exact (c12 x0 x1 p).trans (cov_symm _ _ 1 2)
  | ⟨8, _⟩ => exact c22 x0 x1 p

/-- The block after the body, over the two input blocks: entry (p, c) is entry (rowOf c, colOf c) of M · Mᵀ of row p. -/
theorem block_apply (p : Fin 1600) (c : Fin 9) :
    out0_2 x0 x1 (ix2 p c) = cov (normMul (q x0 p)) (s x1 p) (rowOf c) (colOf c) := by
  rw [block_cols]
  unfold Qc Sc
  rw [quat_cols, scale_cols]

end Cert.KernelIdeal.KerBody

end
-- ==== Proof.KerValue.lean ====
/-
  From blocks to the whole array. Grid point t handles rows 1600 t … 1600 t + 1599 of all three arrays, so what point
  t writes back is block t of one function of the two argument arrays: row n of the flat [4000000, 9] result is the
  nine entries of M · Mᵀ of row n (`flushed_eq`). The 2500 blocks tile the array (row n lies in block n / 1600), so
  the array ends holding that function (`final_flat`). The host then reshapes [4000000, 9] to [4000000, 3, 3]
  row-major: entry (n, i, k) is flat entry (n, 3 i + k) (`reshaped`), and the run's post is read off (`run`).
-/
import proofs.«139577_j53231824666916_2_alg».proof.Proof.KerBody
import Idealize.ShloMosaic.Lib.Pipeline.Value
import Idealize.ShloMosaic.Lib.StableHlo.Run
import Idealize.ShloMosaic.Lib.Tactic

noncomputable section

open scoped BigOperators

namespace Cert.KernelIdeal.KerValue

open Cert.KernelIdeal Cert.KernelIdeal.Gen Cert.KernelIdeal.KerBody Idealize.ShloMosaic Idealize.ShloMosaic.TcCoe Idealize.SL.Sem
open Idealize.ShloMosaic.ValueIdx Cert.QuatCov
open Idealize.ShloMosaic.Pipeline (Dat)

variable (m : (ℓ : Loc nD τ sig) → Buf (Elt Ideal) ℓ) (ρ : Dev nD → PrngReg)

/-- Every window's block at grid point t is block (t, 0) of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One entry of the block the body leaves, against the flat result at the array index it is written back to:
    they agree when the input blocks' rows are the arrays' rows at that index's row. -/
theorem block_entry (X0 : Vec Ideal S1600x4 .f32) (X1 : Vec Ideal S1600x3 .f32)
    (A0 : (⟨2, ![4000000, 4]⟩ : Shape).Idx → EReal) (A1 : (⟨2, ![4000000, 3]⟩ : Shape).Idx → EReal)
    (p : Fin 1600) (cc : Fin 9) (r : Fin 4000000)
    (h0 : ∀ k : Fin 4, X0 (ix2 p k) = A0 (ix2 r k)) (h1 : ∀ j : Fin 3, X1 (ix2 p j) = A1 (ix2 r j)) :
    out0_2 X0 X1 (ix2 p cc) = flat normMul A0 A1 (ix2 r cc) := by
  rw [block_apply]
  have e0 : q X0 p = rowQ A0 r := funext h0
  have e1 : s X1 p = rowS A1 r := funext h1
  rw [e0, e1]
  rfl

/-- What grid point t writes back is block t of the flat result of the two argument arrays. -/
theorem flushed_eq (c : Dev nD) (t : Fin cfg0.N) :
    (dats m 0 c).flushed 2 t
      = ((cfg0.win 2).blk t).view.read (Elt Ideal) (flat normMul (V m c main_arg0) (V m c main_arg1)) := by
  show (cfg0.win 2).cut (grid0.coords t) ((dats m 0 c).after 2 t) = _
  rw [after0_2]
  obtain ⟨e00, e01, e10, e11, e20, e21⟩ := idx_facts t
  have ht : t.val < 2500 := Nat.lt_of_lt_of_eq t.isLt (show cfg0.N = 2500 from N_0)
  funext y
  have hy0 : (y 0).val < 1600 := (y 0).isLt
  have hy1 : (y 1).val < 9 := (y 1).isLt
  show out0_2 (iblk m c 0 t) (iblk m c 1 t) y
    = flat normMul (V m c main_arg0) (V m c main_arg1) (((cfg0.win 2).blk t).view.emb y)
  have ey : y = ix2 (⟨(y 0).val, hy0⟩ : Fin 1600) (⟨(y 1).val, hy1⟩ : Fin 9) :=
    funext fun a => by match a with | ⟨0, _⟩ => rfl | ⟨1, _⟩ => rfl
  have ei : ((cfg0.win 2).blk t).view.emb y
      = ix2 (⟨t.val * 1600 + (y 0).val, by omega⟩ : Fin 4000000) (⟨(y 1).val, hy1⟩ : Fin 9) :=
    funext fun a => Fin.ext (by
      match a with
      | ⟨0, _⟩ => show win0_2.index t (0 : Fin 2) * 1600 + 1 * (y 0).val = t.val * 1600 + (y 0).val; rw [e20]; omega
      | ⟨1, _⟩ => show win0_2.index t (1 : Fin 2) * 9 + 1 * (y 1).val = (y 1).val; rw [e21]; omega)
  rw [ei]
  refine Eq.trans (congrArg (out0_2 (iblk m c 0 t) (iblk m c 1 t)) ey) ?_
  refine block_entry (iblk m c 0 t) (iblk m c 1 t) (V m c main_arg0) (V m c main_arg1) _ _ _ (fun k => ?_) (fun j => ?_)
  · unfold iblk
    rw [View.read_apply]
    show V m c main_arg0 _ = V m c main_arg0 _
    congr 1
    funext a
    apply Fin.ext
    match a with
    | ⟨0, _⟩ => show win0_0.index t (0 : Fin 2) * 1600 + 1 * (y 0).val = t.val * 1600 + (y 0).val; rw [e00]; omega
    | ⟨1, _⟩ => show win0_0.index t (1 : Fin 2) * 4 + 1 * k.val = k.val; rw [e01]; omega
  · unfold iblk
    rw [View.read_apply]
    show V m c main_arg1 _ = V m c main_arg1 _
    congr 1
    funext a
    apply Fin.ext
    match a with
    | ⟨0, _⟩ => show win0_1.index t (0 : Fin 2) * 1600 + 1 * (y 0).val = t.val * 1600 + (y 0).val; rw [e10]; omega
    | ⟨1, _⟩ => show win0_1.index t (1 : Fin 2) * 3 + 1 * j.val = j.val; rw [e11]; omega

/-- An index of the flat array is in point t's block iff each coordinate is in the block's range on its axis. -/
theorem mem_blk (t : Fin cfg0.N) (i : S4000000x9.Idx) :
    i ∈ ((cfg0.win 2).blk t).view.set ↔ ∀ a : Fin 2, win0_2.index t a * S1600x9.size a ≤ (i a).val
      ∧ (i a).val < win0_2.index t a * S1600x9.size a + S1600x9.size a := by
  show i ∈ ((View.whole main_v0).slice (win0_2.rect t)).set ↔ _
  rw [View.set_slice_whole, Rect.mem_set_unit]
  exact Iff.rfl

/-- The 2500 blocks tile the flat array, so it ends holding the flat result. -/
theorem final_flat (c : Dev nD) :
    (dats m 0 c).arrAt 2 cfg0.N = flat normMul (V m c main_arg0) (V m c main_arg1) :=
  (dats m 0 c).arrAt_eq_of_cover 2 (flat normMul (V m c main_arg0) (V m c main_arg1)) (fun t _ => flushed_eq m c t) fun i => by
    have hi0 : (i 0).val < 4000000 := (i 0).isLt
    have hi1 : (i 1).val < 9 := (i 1).isLt
    have hN : cfg0.N = 2500 := N_0
    refine ⟨⟨(i 0).val / 1600, by rw [hN]; omega⟩, flush0_2 _, ?_⟩
    rw [mem_blk]
    obtain ⟨-, -, -, -, e20, e21⟩ := idx_facts ⟨(i 0).val / 1600, by rw [hN]; omega⟩
    intro a
    match a with
    | ⟨0, _⟩ =>
      show win0_2.index _ (0 : Fin 2) * 1600 ≤ (i 0).val ∧ (i 0).val < win0_2.index _ (0 : Fin 2) * 1600 + 1600
      rw [e20]; show (i 0).val / 1600 * 1600 ≤ (i 0).val ∧ (i 0).val < (i 0).val / 1600 * 1600 + 1600; omega
    | ⟨1, _⟩ =>
      show win0_2.index _ (1 : Fin 2) * 9 ≤ (i 1).val ∧ (i 1).val < win0_2.index _ (1 : Fin 2) * 9 + 9
      rw [e21]; omega

/-- The flat result reshaped row-major to [4000000, 3, 3] is the result: entry (n, i, k) is flat entry (n, 3 i + k). -/
theorem reshaped (a0 : (⟨2, ![4000000, 4]⟩ : Shape).Idx → EReal) (a1 : (⟨2, ![4000000, 3]⟩ : Shape).Idx → EReal) :
    shapeCast S4000000x3x3 (flat normMul a0 a1) shapeCasts_S4000000x9_S4000000x3x3 = result normMul a0 a1 := by
  funext j
  obtain ⟨n, i, k, rfl⟩ : ∃ (n : Fin 4000000) (i k : Fin 3), j = ix3 n i k := ⟨j 0, j 1, j 2, eq_ix3 j⟩
  have hik : 3 * i.val + k.val < 9 := by have := i.isLt; have := k.isLt; omega
  rw [shapeCast_apply (flat normMul a0 a1) shapeCasts_S4000000x9_S4000000x3x3 (ix3 n i k) (ix2 n ⟨3 * i.val + k.val, hik⟩) (by
    rw [Shape.rowMajor_val_two, Shape.rowMajor_val_three]
    show n.val * 9 + (3 * i.val + k.val) = (n.val * 3 + i.val) * 3 + k.val
    omega)]
  show cov _ _ (rowOf ⟨3 * i.val + k.val, hik⟩) (colOf ⟨3 * i.val + k.val, hik⟩) = cov _ _ i k
  rw [rowOf_flat, colOf_flat]

/-- The host's reshape of the flat array, after the region: the result of the two argument arrays. -/
theorem tail_eq (c : Dev nD) :
    Pipeline.afterTail₀ cfgs (dats m) 0 (V0 m) [hostOps1] c main_v1
      = result normMul (m ((c.tc : Thread nD τ).loc main_arg0)) (m ((c.tc : Thread nD τ).loc main_arg1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0)
      = flat normMul (V m c main_arg0) (V m c main_arg1) :=
    (Pipeline.withArrays_arr spec0 launch0.win.arr_inj c _ _ 2).trans (final_flat m c)
  rw [hw]
  exact reshaped _ _

/-- The result buffer is none of the region's three arrays. -/
theorem result_mem_rest : main_v1 ∈ Pipeline.restRefs sig spec0 :=
  Pipeline.mem_restRefs_of main_v1 rfl (fun w => by fin_cases w <;> decide)

/-- The run, read: the result array ends at the covariance of every row of the arguments, the quaternion normalised
    by the reciprocal square root, and the arguments end unchanged. -/
theorem run : θ_run defs (onTc (τ := τ) (main (F := Ideal))) ⟨m, fun _ => 0, ρ⟩ fun r => ∀ c : Dev nD,
      r.2.mem ((c.tc : Thread nD τ).loc main_v1)
        = result normMul (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 result_mem_rest).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.KerValue

end
-- ==== Proof.RefValue.lean ====
/-
  The reference's result, read entry by entry: entry (n, i, k) is entry (i, k) of M · Mᵀ for row n, the quaternion
  normalised by dividing by the square root of its sum of squares.

  In order: the normalised quaternion at (n, k); its four components as flat columns; the nine rotation entries, each
  an expression of those components at row n; the three rows joined from three columns, then the matrix joined
  from the three rows; the scaling of column j by s_j; and the contraction over j.
-/
import proofs.«139577_j53231824666916_2_alg».proof.Proof.Gen.ReferenceIdeal.Read
import proofs.«139577_j53231824666916_2_alg».proof.Proof.Spec
import proofs.«139577_j53231824666916_2_alg».proof.Proof.LibConcatUnit

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.ConcatUnit Cert.QuatCov

variable (x0 : (⟨S4000000x4, .f32⟩ : BufTy).Contents (Elt Ideal)) (x1 : (⟨S4000000x3, .f32⟩ : BufTy).Contents (Elt Ideal))

/-- The normalised quaternion of row n at component k: x0[n, k] / √(0 + Σ x0[n, ·]²). -/
theorem quat_apply (n : Fin 4000000) (k : Fin 4) :
    val_main_v2 (F := Ideal) x0 (ix2 n k) = normDiv (rowQ x0 n) k := by
  rw [val_main_v2_apply, val_main_v1_apply, val_main_v0_apply, val_main_call0_v2_apply, val_main_call0_v1_apply]
  have e : ∀ k' : Fin 4, idx_main_call0_v1 (idx_main_call0_v2 (idx_main_v1 (ix2 n k))) k' = ix2 n k' := fun k' =>
    funext fun a => Fin.ext (by match a with | ⟨0, _⟩ => rfl | ⟨1, _⟩ => rfl)
  simp only [e, val_main_call0_v0_apply, val_main_call0_cst_apply]
  rfl

/-- Component 0 (w) as a flat column. -/
theorem w_apply (n : Fin 4000000) : val_main_v4 (F := Ideal) x0 (ix1 n) = normDiv (rowQ x0 n) 0 := by
  rw [val_main_v4_apply, val_main_v3_apply, ← quat_apply]
  exact congrArg _ (funext fun a => Fin.ext (by
    match a with
    | ⟨0, _⟩ => exact Nat.div_one _
    | ⟨1, _⟩ => rfl))
/-- Component 1 (x). -/
theorem x_apply (n : Fin 4000000) : val_main_v6 (F := Ideal) x0 (ix1 n) = normDiv (rowQ x0 n) 1 := by
  rw [val_main_v6_apply, val_main_v5_apply, ← quat_apply]
  exact congrArg _ (funext fun a => Fin.ext (by
    match a with
    | ⟨0, _⟩ => exact Nat.div_one _
    | ⟨1, _⟩ => rfl))
/-- Component 2 (y). -/
theorem y_apply (n : Fin 4000000) : val_main_v8 (F := Ideal) x0 (ix1 n) = normDiv (rowQ x0 n) 2 := by
  rw [val_main_v8_apply, val_main_v7_apply, ← quat_apply]
  exact congrArg _ (funext fun a => Fin.ext (by
    match a with
    | ⟨0, _⟩ => exact Nat.div_one _
    | ⟨1, _⟩ => rfl))
/-- Component 3 (z). -/
theorem z_apply (n : Fin 4000000) : val_main_v10 (F := Ideal) x0 (ix1 n) = normDiv (rowQ x0 n) 3 := by
  rw [val_main_v10_apply, val_main_v9_apply, ← quat_apply]
  exact congrArg _ (funext fun a => Fin.ext (by
    match a with
    | ⟨0, _⟩ => exact Nat.div_one _
    | ⟨1, _⟩ => rfl))

/-- The rotation of row n's normalised quaternion. -/
abbrev R (n : Fin 4000000) (i j : Fin 3) : EReal :=
  rot (normDiv (rowQ x0 n) 0) (normDiv (rowQ x0 n) 1) (normDiv (rowQ x0 n) 2) (normDiv (rowQ x0 n) 3) i j

/-! The nine entries of the rotation, spelt out. -/
theorem rot_00 (w x y z : EReal) : rot w x y z 0 0 = one - two * (y * y + z * z) := rfl
theorem rot_01 (w x y z : EReal) : rot w x y z 0 1 = two * (x * y - w * z) := rfl
theorem rot_02 (w x y z : EReal) : rot w x y z 0 2 = two * (x * z + w * y) := rfl
theorem rot_10 (w x y z : EReal) : rot w x y z 1 0 = two * (x * y + w * z) := rfl
theorem rot_11 (w x y z : EReal) : rot w x y z 1 1 = one - two * (x * x + z * z) := rfl
theorem rot_12 (w x y z : EReal) : rot w x y z 1 2 = two * (y * z - w * x) := rfl
theorem rot_20 (w x y z : EReal) : rot w x y z 2 0 = two * (x * z - w * y) := rfl
theorem rot_21 (w x y z : EReal) : rot w x y z 2 1 = two * (y * z + w * x) := rfl
theorem rot_22 (w x y z : EReal) : rot w x y z 2 2 = one - two * (x * x + y * y) := rfl

/-! Each flat column of the rotation at row n is its entry's expression of w, x, y, z at row n. -/
theorem r00 (n : Fin 4000000) : val_main_v17 (F := Ideal) x0 (ix1 n) = R x0 n 0 0 := by
  rw [val_main_v17_apply, val_main_v16_apply, val_main_cst_0_apply, val_main_v15_apply, val_main_v14_apply, val_main_cst_apply, val_main_v13_apply, val_main_v11_apply, val_main_v12_apply]
  simp only [w_apply, x_apply, y_apply, z_apply]
  unfold R; rw [rot_00]; rfl
theorem r01 (n : Fin 4000000) : val_main_v22 (F := Ideal) x0 (ix1 n) = R x0 n 0 1 := by
  rw [val_main_v22_apply, val_main_v21_apply, val_main_cst_1_apply, val_main_v20_apply, val_main_v18_apply, val_main_v19_apply]
  simp only [w_apply, x_apply, y_apply, z_apply]
  unfold R; rw [rot_01]; rfl
theorem r02 (n : Fin 4000000) : val_main_v27 (F := Ideal) x0 (ix1 n) = R x0 n 0 2 := by
  rw [val_main_v27_apply, val_main_v26_apply, val_main_cst_2_apply, val_main_v25_apply, val_main_v23_apply, val_main_v24_apply]
  simp only [w_apply, x_apply, y_apply, z_apply]
  unfold R; rw [rot_02]; rfl
theorem r10 (n : Fin 4000000) : val_main_v32 (F := Ideal) x0 (ix1 n) = R x0 n 1 0 := by
  rw [val_main_v32_apply, val_main_v31_apply, val_main_cst_3_apply, val_main_v30_apply, val_main_v28_apply, val_main_v29_apply]
  simp only [w_apply, x_apply, y_apply, z_apply]
  unfold R; rw [rot_10]; rfl
theorem r11 (n : Fin 4000000) : val_main_v39 (F := Ideal) x0 (ix1 n) = R x0 n 1 1 := by
  rw [val_main_v39_apply, val_main_v38_apply, val_main_cst_5_apply, val_main_v37_apply, val_main_v36_apply, val_main_cst_4_apply, val_main_v35_apply, val_main_v33_apply, val_main_v34_apply]
  simp only [w_apply, x_apply, y_apply, z_apply]
  unfold R; rw [rot_11]; rfl
theorem r12 (n : Fin 4000000) : val_main_v44 (F := Ideal) x0 (ix1 n) = R x0 n 1 2 := by
  rw [val_main_v44_apply, val_main_v43_apply, val_main_cst_6_apply, val_main_v42_apply, val_main_v40_apply, val_main_v41_apply]
  simp only [w_apply, x_apply, y_apply, z_apply]
  unfold R; rw [rot_12]; rfl
theorem r20 (n : Fin 4000000) : val_main_v49 (F := Ideal) x0 (ix1 n) = R x0 n 2 0 := by
  rw [val_main_v49_apply, val_main_v48_apply, val_main_cst_7_apply, val_main_v47_apply, val_main_v45_apply, val_main_v46_apply]
  simp only [w_apply, x_apply, y_apply, z_apply]
  unfold R; rw [rot_20]; rfl
theorem r21 (n : Fin 4000000) : val_main_v54 (F := Ideal) x0 (ix1 n) = R x0 n 2 1 := by
  rw [val_main_v54_apply, val_main_v53_apply, val_main_cst_8_apply, val_main_v52_apply, val_main_v50_apply, val_main_v51_apply]
  simp only [w_apply, x_apply, y_apply, z_apply]
  unfold R; rw [rot_21]; rfl
theorem r22 (n : Fin 4000000) : val_main_v61 (F := Ideal) x0 (ix1 n) = R x0 n 2 2 := by
  rw [val_main_v61_apply, val_main_v60_apply, val_main_cst_10_apply, val_main_v59_apply, val_main_v58_apply, val_main_cst_9_apply, val_main_v57_apply, val_main_v55_apply, val_main_v56_apply]
  simp only [w_apply, x_apply, y_apply, z_apply]
  unfold R; rw [rot_22]; rfl

/-- Two indices are equal when their coordinates are (rank 1, 2, 3). -/
local macro "coords1" : tactic => `(tactic| (refine funext fun a => Fin.ext ?_; match a with | ⟨0, _⟩ => rfl))
local macro "coords2" : tactic => `(tactic| (refine funext fun a => Fin.ext ?_; match a with | ⟨0, _⟩ => rfl | ⟨1, _⟩ => rfl))
local macro "coords3" : tactic => `(tactic| (refine funext fun a => Fin.ext ?_; match a with | ⟨0, _⟩ => rfl | ⟨1, _⟩ => rfl | ⟨2, _⟩ => rfl))

/-! Each row of the rotation as a [4000000, 3] array: its three columns joined. -/
theorem row0 (n : Fin 4000000) (j : Fin 3) : val_main_v65 (F := Ideal) x0 (ix2 n j) = R x0 n 0 j := by
  unfold val_main_v65
  refine (cols3_apply (R := 4000000) (val_main_v62 (F := Ideal) x0) (val_main_v63 (F := Ideal) x0) (val_main_v64 (F := Ideal) x0) _ n j).trans ?_
  match j with
  | ⟨0, _⟩ => exact (val_main_v62_apply x0 (ix2 n 0)).trans ((congrArg (val_main_v17 (F := Ideal) x0) (by coords1)).trans (r00 x0 n))
  | ⟨1, _⟩ => exact (val_main_v63_apply x0 (ix2 n 0)).trans ((congrArg (val_main_v22 (F := Ideal) x0) (by coords1)).trans (r01 x0 n))
  | ⟨2, _⟩ => exact (val_main_v64_apply x0 (ix2 n 0)).trans ((congrArg (val_main_v27 (F := Ideal) x0) (by coords1)).trans (r02 x0 n))
theorem row1 (n : Fin 4000000) (j : Fin 3) : val_main_v69 (F := Ideal) x0 (ix2 n j) = R x0 n 1 j := by
  unfold val_main_v69
  refine (cols3_apply (R := 4000000) (val_main_v66 (F := Ideal) x0) (val_main_v67 (F := Ideal) x0) (val_main_v68 (F := Ideal) x0) _ n j).trans ?_
  match j with
  | ⟨0, _⟩ => exact (val_main_v66_apply x0 (ix2 n 0)).trans ((congrArg (val_main_v32 (F := Ideal) x0) (by coords1)).trans (r10 x0 n))
  | ⟨1, _⟩ => exact (val_main_v67_apply x0 (ix2 n 0)).trans ((congrArg (val_main_v39 (F := Ideal) x0) (by coords1)).trans (r11 x0 n))
  | ⟨2, _⟩ => exact (val_main_v68_apply x0 (ix2 n 0)).trans ((congrArg (val_main_v44 (F := Ideal) x0) (by coords1)).trans (r12 x0 n))
theorem row2 (n : Fin 4000000) (j : Fin 3) : val_main_v73 (F := Ideal) x0 (ix2 n j) = R x0 n 2 j := by
  unfold val_main_v73
  refine (cols3_apply (R := 4000000) (val_main_v70 (F := Ideal) x0) (val_main_v71 (F := Ideal) x0) (val_main_v72 (F := Ideal) x0) _ n j).trans ?_
  match j with
  | ⟨0, _⟩ => exact (val_main_v70_apply x0 (ix2 n 0)).trans ((congrArg (val_main_v49 (F := Ideal) x0) (by coords1)).trans (r20 x0 n))
  | ⟨1, _⟩ => exact (val_main_v71_apply x0 (ix2 n 0)).trans ((congrArg (val_main_v54 (F := Ideal) x0) (by coords1)).trans (r21 x0 n))
  | ⟨2, _⟩ => exact (val_main_v72_apply x0 (ix2 n 0)).trans ((congrArg (val_main_v61 (F := Ideal) x0) (by coords1)).trans (r22 x0 n))

/-- The rotation as a [4000000, 3, 3] array: the three rows joined along the middle axis. -/
theorem mat_apply (n : Fin 4000000) (i j : Fin 3) : val_main_v77 (F := Ideal) x0 (ix3 n i j) = R x0 n i j := by
  unfold val_main_v77
  refine (slabs3_apply (R := 4000000) (C := 3) (val_main_v74 (F := Ideal) x0) (val_main_v75 (F := Ideal) x0) (val_main_v76 (F := Ideal) x0) _ n i j).trans ?_
  match i with
  | ⟨0, _⟩ => exact (val_main_v74_apply x0 (ix3 n 0 j)).trans ((congrArg (val_main_v65 (F := Ideal) x0) (by coords2)).trans (row0 x0 n j))
  | ⟨1, _⟩ => exact (val_main_v75_apply x0 (ix3 n 0 j)).trans ((congrArg (val_main_v69 (F := Ideal) x0) (by coords2)).trans (row1 x0 n j))
  | ⟨2, _⟩ => exact (val_main_v76_apply x0 (ix3 n 0 j)).trans ((congrArg (val_main_v73 (F := Ideal) x0) (by coords2)).trans (row2 x0 n j))

/-- Column j scaled by s_j of row n. -/
theorem scaled_apply (n : Fin 4000000) (i j : Fin 3) :
    val_main_v80 (F := Ideal) x0 x1 (ix3 n i j) = scaled (normDiv (rowQ x0 n)) (rowS x1 n) i j := by
  rw [val_main_v80_apply, mat_apply, val_main_v79_apply, val_main_v78_apply]
  have e : idx_main_v78 (idx_main_v79 (ix3 n i j)) = ix2 n j := by coords2
  rw [e]
  rfl

/-- The contraction over j: entry (n, i, k) of the result. -/
theorem result_apply (n : Fin 4000000) (i k : Fin 3) :
    val_main_v81 (F := Ideal) x0 x1 (ix3 n i k) = cov (normDiv (rowQ x0 n)) (rowS x1 n) i k := by
  rw [val_main_v81_apply, Fin.sum_univ_three]
  have el : ∀ j : Fin 3, lidx_main_v81 (ix3 n i k) j = ix3 n i j := fun j => by coords3
  have er : ∀ j : Fin 3, ridx_main_v81 (ix3 n i k) j = ix3 n k j := fun j => by coords3
  simp only [el, er, scaled_apply]
  rfl

/-- The reference's result array is the covariance of every row, normalised by division. -/
theorem result_eq : val_main_v81 (F := Ideal) x0 x1 = result normDiv x0 x1 := by
  funext j
  obtain ⟨n, i, k, rfl⟩ : ∃ (n : Fin 4000000) (i k : Fin 3), j = ix3 n i k := ⟨j 0, j 1, j 2, eq_ix3 j⟩
  exact result_apply x0 x1 n i k

end Cert.ReferenceIdeal.RefValue

end
-- ==== Proof.lean ====
/-
  The covariance M · Mᵀ of a scaled rotation, M = R(q / |q|) · diag(s), for four million quaternions q and scales s:
  the kernel against its reference, on the extended reals.

  Both programs compute, for every row n, the nine entries Σ_j M_ij M_kj with M_ij = R_ij · s_j and R the rotation
  matrix of the normalised quaternion; they spell the entries of R, the scaling and the three-term sums in the same
  order. They differ in two places. The kernel normalises by multiplying with the reciprocal square root of the sum
  of squares, the reference by dividing by its square root: equal wherever the sum of squares is positive, which is
  what the precondition's last conjunct says of every row (at an all-zero row the reference divides 0 by 0). And
  the kernel stores the three entries below the diagonal as copies of their mirror entries: equal because the
  product commutes. The kernel works in blocks of 1600 rows and writes a flat [4000000, 9] array which the host
  reshapes to [4000000, 3, 3]; the reference builds the [4000000, 3, 3] array of M by joining columns and rows and
  contracts it with itself over the last axis.

  The three frames are the generated ones (the reference's is its generated run with the result dropped); the
  idealization rewrote nothing, so `preserves` is trivial.
-/
import proofs.«139577_j53231824666916_2_alg».proof.Defs
import proofs.«139577_j53231824666916_2_alg».proof.Proof.Gen.Kernel
import proofs.«139577_j53231824666916_2_alg».proof.Proof.Gen.Kernel.Skeleton
import proofs.«139577_j53231824666916_2_alg».proof.Proof.Gen.Kernel.Launch
import proofs.«139577_j53231824666916_2_alg».proof.Proof.Gen.Kernel.Points
import proofs.«139577_j53231824666916_2_alg».proof.Proof.Gen.Kernel.Frame
import proofs.«139577_j53231824666916_2_alg».proof.Proof.Gen.KernelIdeal
import proofs.«139577_j53231824666916_2_alg».proof.Proof.Gen.KernelIdeal.Skeleton
import proofs.«139577_j53231824666916_2_alg».proof.Proof.Gen.KernelIdeal.Launch
import proofs.«139577_j53231824666916_2_alg».proof.Proof.Gen.KernelIdeal.Points
import proofs.«139577_j53231824666916_2_alg».proof.Proof.Gen.KernelIdeal.Frame
import proofs.«139577_j53231824666916_2_alg».proof.Proof.Gen.ReferenceIdeal
import proofs.«139577_j53231824666916_2_alg».proof.Proof.Gen.ReferenceIdeal.Run
import proofs.«139577_j53231824666916_2_alg».proof.Proof.Gen.ReferenceIdeal.Read
import proofs.«139577_j53231824666916_2_alg».proof.Proof.Gen.Pre_finite_inputs
import proofs.«139577_j53231824666916_2_alg».proof.Proof.Spec
import proofs.«139577_j53231824666916_2_alg».proof.Proof.Domain
import proofs.«139577_j53231824666916_2_alg».proof.Proof.KerValue
import proofs.«139577_j53231824666916_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the covariance of every row: the kernel's with the quaternion normalised by the reciprocal
    square root, the reference's by division, and under the precondition every row's sum of squares is positive, so
    the two are one array. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, Cert.ReferenceIdeal.RefValue.result_eq, (hagree c).1, (hagree c).2]
  exact (Cert.QuatCov.result_normMul_eq_normDiv _ _
    (fun n => Cert.Pre_finite_inputs.Domain.rows_positive _ _ (hpre c) n)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
